-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x14x1024 : Shape := ⟨3, ![16384, 14, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S16384x14x1024 : S_.BroadcastsInDim S16384x14x1024 (![] : Fin 0 → Fin S16384x14x1024.rank)
  reducesTo_S16384x14x1024_S_d0_1_2 : S16384x14x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x14x1024 .f32) (main_arg1 : FVec F S1024x1024 .f32) (main_arg2 : FVec F S1024 .f32) (main_arg3 : FVec F S1024x1 .f32) (main_arg4 : FVec F S1 .f32) : IVec S_ 1 :=
  let main_v0 : FVec F S16384x14x1024 .f32 := Host.absf main_arg0
  let main_cst : FVec F S_ .f32 := constant S_ .f32 0x7F800000#32
  let main_v1 : FVec F S16384x14x1024 .f32 := broadcastInDim S16384x14x1024 ![] bcast_S_S16384x14x1024 main_cst
  let main_v2 : IVec S16384x14x1024 1 := cmpf .olt main_v0 main_v1
  let main_c : IVec S_ 1 := constantI S_ 1 1#1
  let main_v3 : IVec S_ 1 := (fun x v => Host.reduce IntOp.andi x v reducesTo_S16384x14x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S16384x14x1024 : Shape := ⟨3, ![16384, 14, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S229376x1024 : Shape := ⟨2, ![229376, 1024]⟩
abbrev S16384x14 : Shape := ⟨2, ![16384, 14]⟩
abbrev S1792x1024 : Shape := ⟨2, ![1792, 1024]⟩
abbrev S128x14 : Shape := ⟨2, ![128, 14]⟩
abbrev S1792 : Shape := ⟨1, ![1792]⟩
abbrev S1792x1 : Shape := ⟨2, ![1792, 1]⟩
abbrev S1x1 : Shape := ⟨2, ![1, 1]⟩
abbrev S14x16384 : Shape := ⟨2, ![14, 16384]⟩
abbrev S_ : Shape := ⟨0, ![]⟩
abbrev S14 : Shape := ⟨1, ![14]⟩
abbrev S14x1 : Shape := ⟨2, ![14, 1]⟩
abbrev S16384x1024 : Shape := ⟨2, ![16384, 1024]⟩
abbrev S256x14 : Shape := ⟨2, ![256, 14]⟩
abbrev S256x14x1024 : Shape := ⟨3, ![256, 14, 1024]⟩
abbrev S256x1024 : Shape := ⟨2, ![256, 1024]⟩
abbrev S256x1 : Shape := ⟨2, ![256, 1]⟩
abbrev S256x1x1024 : Shape := ⟨3, ![256, 1, 1024]⟩

abbrev nBuf : Space → Nat
  | .hbm => 26
  | .vmem => 14
  | .smem => 0
  | _ => 0

abbrev bufTy : (tb : Table) → Fin (tcTables nBuf tb) → BufTy
  | .hbm, ⟨0, _⟩ => ⟨S16384x14x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S1024x1024, .bf16⟩
  | .hbm, ⟨6, _⟩ => ⟨S1x1024, .f32⟩
  | .hbm, ⟨7, _⟩ => ⟨S229376x1024, .f32⟩
  | .hbm, ⟨8, _⟩ => ⟨S16384x14, .f32⟩
  | .hbm, ⟨9, _⟩ => ⟨S14x16384, .f32⟩
  | .hbm, ⟨10, _⟩ => ⟨S_, .f32⟩
  | .hbm, ⟨11, _⟩ => ⟨S14, .f32⟩
  | .hbm, ⟨12, _⟩ => ⟨S_, .f32⟩
  | .hbm, ⟨13, _⟩ => ⟨S14, .f32⟩
  | .hbm, ⟨14, _⟩ => ⟨S14, .f32⟩
  | .hbm, ⟨15, _⟩ => ⟨S14x1, .f32⟩
  | .hbm, ⟨16, _⟩ => ⟨S14x16384, .f32⟩
  | .hbm, ⟨17, _⟩ => ⟨S14x16384, .f32⟩
  | .hbm, ⟨18, _⟩ => ⟨S14x16384, .f32⟩
  | .hbm, ⟨19, _⟩ => ⟨S_, .f32⟩
  | .hbm, ⟨20, _⟩ => ⟨S14, .f32⟩
  | .hbm, ⟨21, _⟩ => ⟨S14x1, .f32⟩
  | .hbm, ⟨22, _⟩ => ⟨S14x16384, .f32⟩
  | .hbm, ⟨23, _⟩ => ⟨S14x16384, .f32⟩
  | .hbm, ⟨24, _⟩ => ⟨S16384x14, .f32⟩
  | .hbm, ⟨25, _⟩ => ⟨S16384x1024, .f32⟩
  | .local _ .vmem, ⟨0, _⟩ => ⟨S1792x1024, .f32⟩
  | .local _ .vmem, ⟨1, _⟩ => ⟨S1792x1024, .f32⟩
  | .local _ .vmem, ⟨2, _⟩ => ⟨S1024x1024, .bf16⟩
  | .local _ .vmem, ⟨3, _⟩ => ⟨S1024, .f32⟩
  | .local _ .vmem, ⟨4, _⟩ => ⟨S1x1024, .f32⟩
  | .local _ .vmem, ⟨5, _⟩ => ⟨S1, .f32⟩
  | .local _ .vmem, ⟨6, _⟩ => ⟨S128x14, .f32⟩
  | .local _ .vmem, ⟨7, _⟩ => ⟨S128x14, .f32⟩
  | .local _ .vmem, ⟨8, _⟩ => ⟨S256x14, .f32⟩
  | .local _ .vmem, ⟨9, _⟩ => ⟨S256x14, .f32⟩
  | .local _ .vmem, ⟨10, _⟩ => ⟨S256x14x1024, .f32⟩
  | .local _ .vmem, ⟨11, _⟩ => ⟨S256x14x1024, .f32⟩
  | .local _ .vmem, ⟨12, _⟩ => ⟨S256x1024, .f32⟩
  | .local _ .vmem, ⟨13, _⟩ => ⟨S256x1024, .f32⟩
  | _, _ => ⟨S16384x14x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x14x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S1024x1_S1x1024 : S1024x1.ShapeCasts S1x1024
  shapeCasts_S16384x14x1024_S229376x1024 : S16384x14x1024.ShapeCasts S229376x1024
  inb_S1792x1024_S1792x1024_0_0 : ∀ a, (![0, 0] : Fin 2 → Nat) a + S1792x1024.size a ≤ S1792x1024.size a
  h_S1792x1024 : 0 < S1792x1024.numel
  shapeCasts_S1792x1024_S1792x1024 : S1792x1024.ShapeCasts S1792x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1792x1024 : S1x1024.Broadcasts S1792x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1792x1024_S1792 : S1792x1024.Reduces [1] S1792
  shapeCasts_S1792_S1792x1 : S1792.ShapeCasts S1792x1
  inb_S1_S1_0 : ∀ a, (![0] : Fin 1 → Nat) a + S1.size a ≤ S1.size a
  h_S1 : 0 < S1.numel
  shapeCasts_S1_S1x1 : S1.ShapeCasts S1x1
  broadcasts_S1x1_S1792x1 : S1x1.Broadcasts S1792x1
  shapeCasts_S1792x1_S128x14 : S1792x1.ShapeCasts S128x14
  inb_S128x14_S128x14_0_0 : ∀ a, (![0, 0] : Fin 2 → Nat) a + S128x14.size a ≤ S128x14.size a
  h_S128x14 : 0 < S128x14.numel
  transposes_S16384x14_S14x16384_1_0 : S16384x14.Transposes [1, 0] S14x16384
  reducesTo_S14x16384_S14_d1 : S14x16384.ReducesTo [1] S14
  h_S_ : 0 < S_.numel
  bcast_S_S14 : S_.BroadcastsInDim S14 (![] : Fin 0 → Fin S14.rank)
  bcast_S14_S14x1_0 : S14.BroadcastsInDim S14x1 (![0] : Fin 1 → Fin S14x1.rank)
  bcast_S14x1_S14x16384_0_1 : S14x1.BroadcastsInDim S14x16384 (![0, 1] : Fin 2 → Fin S14x16384.rank)
  shapeCasts_S14x16384_S16384x14 : S14x16384.ShapeCasts S16384x14
  inb_S256x14_S256x14_0_0 : ∀ a, (![0, 0] : Fin 2 → Nat) a + S256x14.size a ≤ S256x14.size a
  h_S256x14 : 0 < S256x14.numel
  shapeCasts_S256x14_S256x14 : S256x14.ShapeCasts S256x14
  inb_S256x14x1024_S256x14x1024_0_0_0 : ∀ a, (![0, 0, 0] : Fin 3 → Nat) a + S256x14x1024.size a ≤ S256x14x1024.size a
  h_S256x14x1024 : 0 < S256x14x1024.numel
  slices_S256x14_o0_0_S256x1 : S256x14.Slices ![0, 0] S256x1
  slices_S256x14x1024_o0_0_0_S256x1x1024 : S256x14x1024.Slices ![0, 0, 0] S256x1x1024
  shapeCasts_S256x1x1024_S256x1024 : S256x1x1024.ShapeCasts S256x1024
  broadcasts_S256x1_S256x1024 : S256x1.Broadcasts S256x1024
  slices_S256x14_o0_1_S256x1 : S256x14.Slices ![0, 1] S256x1
  slices_S256x14x1024_o0_1_0_S256x1x1024 : S256x14x1024.Slices ![0, 1, 0] S256x1x1024
  slices_S256x14_o0_2_S256x1 : S256x14.Slices ![0, 2] S256x1
  slices_S256x14x1024_o0_2_0_S256x1x1024 : S256x14x1024.Slices ![0, 2, 0] S256x1x1024
  slices_S256x14_o0_3_S256x1 : S256x14.Slices ![0, 3] S256x1
  slices_S256x14x1024_o0_3_0_S256x1x1024 : S256x14x1024.Slices ![0, 3, 0] S256x1x1024
  slices_S256x14_o0_4_S256x1 : S256x14.Slices ![0, 4] S256x1
  slices_S256x14x1024_o0_4_0_S256x1x1024 : S256x14x1024.Slices ![0, 4, 0] S256x1x1024
  slices_S256x14_o0_5_S256x1 : S256x14.Slices ![0, 5] S256x1
  slices_S256x14x1024_o0_5_0_S256x1x1024 : S256x14x1024.Slices ![0, 5, 0] S256x1x1024
  slices_S256x14_o0_6_S256x1 : S256x14.Slices ![0, 6] S256x1
  slices_S256x14x1024_o0_6_0_S256x1x1024 : S256x14x1024.Slices ![0, 6, 0] S256x1x1024
  slices_S256x14_o0_7_S256x1 : S256x14.Slices ![0, 7] S256x1
  slices_S256x14x1024_o0_7_0_S256x1x1024 : S256x14x1024.Slices ![0, 7, 0] S256x1x1024
  slices_S256x14_o0_8_S256x1 : S256x14.Slices ![0, 8] S256x1
  slices_S256x14x1024_o0_8_0_S256x1x1024 : S256x14x1024.Slices ![0, 8, 0] S256x1x1024
  slices_S256x14_o0_9_S256x1 : S256x14.Slices ![0, 9] S256x1
  slices_S256x14x1024_o0_9_0_S256x1x1024 : S256x14x1024.Slices ![0, 9, 0] S256x1x1024
  slices_S256x14_o0_10_S256x1 : S256x14.Slices ![0, 10] S256x1
  slices_S256x14x1024_o0_10_0_S256x1x1024 : S256x14x1024.Slices ![0, 10, 0] S256x1x1024
  slices_S256x14_o0_11_S256x1 : S256x14.Slices ![0, 11] S256x1
  slices_S256x14x1024_o0_11_0_S256x1x1024 : S256x14x1024.Slices ![0, 11, 0] S256x1x1024
  slices_S256x14_o0_12_S256x1 : S256x14.Slices ![0, 12] S256x1
  slices_S256x14x1024_o0_12_0_S256x1x1024 : S256x14x1024.Slices ![0, 12, 0] S256x1x1024
  slices_S256x14_o0_13_S256x1 : S256x14.Slices ![0, 13] S256x1
  slices_S256x14x1024_o0_13_0_S256x1x1024 : S256x14x1024.Slices ![0, 13, 0] S256x1x1024
  inb_S256x1024_S256x1024_0_0 : ∀ a, (![0, 0] : Fin 2 → Nat) a + S256x1024.size a ≤ S256x1024.size a
  h_S256x1024 : 0 < S256x1024.numel
  dot_S1792x1024_S1024x1024_S1792x1024_1_0_0_1_n_n_wf : DotDims.WF S1792x1024 S1024x1024 S1792x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x1024.size a ≤ S229376x1024.size a
  hwx0_0 : ∀ i : grid0.Coords, EltTy.bits .f32 = 32 ∨ (Rect.block (s := S229376x1024) S1792x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x14.size a ≤ S16384x14.size a
  hwx0_5 : ∀ i : grid0.Coords, EltTy.bits .f32 = 32 ∨ (Rect.block (s := S16384x14) S128x14.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x14.size a ≤ S16384x14.size a
  hwx1_0 : ∀ i : grid1.Coords, EltTy.bits .f32 = 32 ∨ (Rect.block (s := S16384x14) S256x14.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x14x1024.size a ≤ S16384x14x1024.size a
  hwx1_1 : ∀ i : grid1.Coords, EltTy.bits .f32 = 32 ∨ (Rect.block (s := S16384x14x1024) S256x14x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S16384x1024.size a
  hwx1_2 : ∀ i : grid1.Coords, EltTy.bits .f32 = 32 ∨ (Rect.block (s := S16384x1024) S256x1024.size (cc1_transform_2 i) (hinb1_2 i)).WholeWords (EltTy.packing .f32)

variable [Facts₀]

def dot_S1792x1024_S1024x1024_S1792x1024_1_0_0_1_n_n : DotDims S1792x1024 S1024x1024 S1792x1024 where
  lhsContracting := [1]
  rhsContracting := [0]
  lhsNonContracting := [0]
  rhsNonContracting := [1]
  lhsBatch := []
  rhsBatch := []
  wf := dot_S1792x1024_S1024x1024_S1792x1024_1_0_0_1_n_n_wf

abbrev win0_0 : Pipeline.Window sig grid0 :=
  Pipeline.Window.ofSpec (Memref.whole main_v2) S1792x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x14.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S256x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x14x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x14x1024 : Shape := ⟨3, ![16384, 14, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S16384x14x1 : Shape := ⟨3, ![16384, 14, 1]⟩
abbrev S1x1x1 : Shape := ⟨3, ![1, 1, 1]⟩
abbrev S16384x14 : Shape := ⟨2, ![16384, 14]⟩
abbrev S14x16384 : Shape := ⟨2, ![14, 16384]⟩
abbrev S_ : Shape := ⟨0, ![]⟩
abbrev S14 : Shape := ⟨1, ![14]⟩
abbrev S14x1 : Shape := ⟨2, ![14, 1]⟩
abbrev S16384x1x14 : Shape := ⟨3, ![16384, 1, 14]⟩
abbrev S16384x1x1024 : Shape := ⟨3, ![16384, 1, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x14x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S16384x14x1024, .f32⟩
  | .hbm, ⟨6, _⟩ => ⟨S1x1x1024, .f32⟩
  | .hbm, ⟨7, _⟩ => ⟨S16384x14x1024, .f32⟩
  | .hbm, ⟨8, _⟩ => ⟨S16384x14x1024, .f32⟩
  | .hbm, ⟨9, _⟩ => ⟨S16384x14x1024, .f32⟩
  | .hbm, ⟨10, _⟩ => ⟨S16384x14x1, .f32⟩
  | .hbm, ⟨11, _⟩ => ⟨S1x1x1, .f32⟩
  | .hbm, ⟨12, _⟩ => ⟨S16384x14x1, .f32⟩
  | .hbm, ⟨13, _⟩ => ⟨S16384x14x1, .f32⟩
  | .hbm, ⟨14, _⟩ => ⟨S16384x14, .f32⟩
  | .hbm, ⟨15, _⟩ => ⟨S14x16384, .f32⟩
  | .hbm, ⟨16, _⟩ => ⟨S_, .f32⟩
  | .hbm, ⟨17, _⟩ => ⟨S14, .f32⟩
  | .hbm, ⟨18, _⟩ => ⟨S_, .f32⟩
  | .hbm, ⟨19, _⟩ => ⟨S14, .f32⟩
  | .hbm, ⟨20, _⟩ => ⟨S14, .f32⟩
  | .hbm, ⟨21, _⟩ => ⟨S14x1, .f32⟩
  | .hbm, ⟨22, _⟩ => ⟨S14x16384, .f32⟩
  | .hbm, ⟨23, _⟩ => ⟨S14x16384, .f32⟩
  | .hbm, ⟨24, _⟩ => ⟨S14x16384, .f32⟩
  | .hbm, ⟨25, _⟩ => ⟨S_, .f32⟩
  | .hbm, ⟨26, _⟩ => ⟨S14, .f32⟩
  | .hbm, ⟨27, _⟩ => ⟨S14x1, .f32⟩
  | .hbm, ⟨28, _⟩ => ⟨S14x16384, .f32⟩
  | .hbm, ⟨29, _⟩ => ⟨S14x16384, .f32⟩
  | .hbm, ⟨30, _⟩ => ⟨S16384x1x14, .f32⟩
  | .hbm, ⟨31, _⟩ => ⟨S16384x1x1024, .f32⟩
  | .hbm, ⟨32, _⟩ => ⟨S16384x1024, .f32⟩
  | _, _ => ⟨S16384x14x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16384x14x1024_0_1_2 : S1x1x1024.BroadcastsInDim S16384x14x1024 (![0, 1, 2] : Fin 3 → Fin S16384x14x1024.rank)
  bcast_S1_S1x1x1_2 : S1.BroadcastsInDim S1x1x1 (![2] : Fin 1 → Fin S1x1x1.rank)
  bcast_S1x1x1_S16384x14x1_0_1_2 : S1x1x1.BroadcastsInDim S16384x14x1 (![0, 1, 2] : Fin 3 → Fin S16384x14x1.rank)
  shapeCasts_S16384x14x1_S16384x14 : S16384x14x1.ShapeCasts S16384x14
  transposes_S16384x14_S14x16384_1_0 : S16384x14.Transposes [1, 0] S14x16384
  reducesTo_S14x16384_S14_d1 : S14x16384.ReducesTo [1] S14
  h_S_ : 0 < S_.numel
  bcast_S_S14 : S_.BroadcastsInDim S14 (![] : Fin 0 → Fin S14.rank)
  bcast_S14_S14x1_0 : S14.BroadcastsInDim S14x1 (![0] : Fin 1 → Fin S14x1.rank)
  bcast_S14x1_S14x16384_0_1 : S14x1.BroadcastsInDim S14x16384 (![0, 1] : Fin 2 → Fin S14x16384.rank)
  shapeCasts_S14x16384_S16384x1x14 : S14x16384.ShapeCasts S16384x1x14
  shapeCasts_S16384x1x1024_S16384x1024 : S16384x1x1024.ShapeCasts S16384x1024
  dot_S16384x14x1024_S1024x1024_S16384x14x1024_2_0_01_1_n_n_wf : DotDims.WF S16384x14x1024 S1024x1024 S16384x14x1024 [2] [0] [0, 1] [1] [] []
  dot_S16384x14x1024_S1024x1_S16384x14x1_2_0_01_1_n_n_wf : DotDims.WF S16384x14x1024 S1024x1 S16384x14x1 [2] [0] [0, 1] [1] [] []
  dot_S16384x1x14_S16384x14x1024_S16384x1x1024_2_1_1_2_0_0_wf : DotDims.WF S16384x1x14 S16384x14x1024 S16384x1x1024 [2] [1] [1] [2] [0] [0]

variable [Facts₀]

def dot_S16384x14x1024_S1024x1024_S16384x14x1024_2_0_01_1_n_n : DotDims S16384x14x1024 S1024x1024 S16384x14x1024 where
  lhsContracting := [2]
  rhsContracting := [0]
  lhsNonContracting := [0, 1]
  rhsNonContracting := [1]
  lhsBatch := []
  rhsBatch := []
  wf := dot_S16384x14x1024_S1024x1024_S16384x14x1024_2_0_01_1_n_n_wf
def dot_S16384x14x1024_S1024x1_S16384x14x1_2_0_01_1_n_n : DotDims S16384x14x1024 S1024x1 S16384x14x1 where
  lhsContracting := [2]
  rhsContracting := [0]
  lhsNonContracting := [0, 1]
  rhsNonContracting := [1]
  lhsBatch := []
  rhsBatch := []
  wf := dot_S16384x14x1024_S1024x1_S16384x14x1_2_0_01_1_n_n_wf
def dot_S16384x1x14_S16384x14x1024_S16384x1x1024_2_1_1_2_0_0 : DotDims S16384x1x14 S16384x14x1024 S16384x1x1024 where
  lhsContracting := [2]
  rhsContracting := [1]
  lhsNonContracting := [1]
  rhsNonContracting := [2]
  lhsBatch := [0]
  rhsBatch := [0]
  wf := dot_S16384x1x14_S16384x14x1024_S16384x1x1024_2_1_1_2_0_0_wf

class Facts : Prop extends Facts₀ where

variable [Facts]
-- ==== Proof.Spec.lean ====
/-
  The mathematics both programs compute, stated once over the argument arrays, index by index, on the extended reals.

  A batch of 16384 questions, each of 14 tokens with 1024 features.  Every token gets a score: a dense layer with
  tanh, then a dot product with one weight column and a bias (`logit`).  The scores of one token POSITION are
  normalised by a softmax over the whole batch; the resulting [14, 16384] table is then re-read row-major as a
  [16384, 14] table of weights (`reread`: entry (b, s) is the entry at flat position 14 b + s), and question b's
  pooled vector is the weighted sum over its tokens with row b of that table (`pool`).
-/
import Idealize.ShloMosaic.PureOps.Ideal
import Idealize.ShloMosaic.Lib.ValueIdx

noncomputable section

namespace Cert.AttnPool

open Idealize.ShloMosaic Idealize.ShloMosaic.ValueIdx

/-- Row r = 14 b + s of the flattened [229376, 1024] questions, from a (question, token) pair. -/
abbrev flatRow (b : Fin 16384) (s : Fin 14) : Fin 229376 := ⟨b.val * 14 + s.val, by have := b.isLt; have := s.isLt; omega⟩

/-- The score of token s of question b, from the [16384, 14, 1024] questions, the [1024, 1024] first-layer weights,
    its bias, the [1024, 1] second-layer column and its bias:
    sum over d of tanh (sum over h of q[b,s,h] * W1[h,d] + b1[d]) * W2[d,0], plus b2[0]. -/
def logit (q : (⟨3, ![16384, 14, 1024]⟩ : Shape).Idx → EReal) (W1 : (⟨2, ![1024, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) : (⟨2, ![16384, 14]⟩ : Shape).Idx → EReal :=
  fun i => (∑ d : Fin 1024, Ideal.tanh ((∑ h : Fin 1024, q (ix3 (i 0) (i 1) h) * W1 (ix2 h d)) + b1 (ix1 d)) * W2 (ix2 d 0))
    + b2 (ix1 0)

/-- The same score from the questions flattened to [229376, 1024] (row 14 b + s is token s of question b) and the
    second-layer weights as a [1, 1024] row. -/
def logitFlat (x : (⟨2, ![229376, 1024]⟩ : Shape).Idx → EReal) (w1 : (⟨2, ![1024, 1024]⟩ : Shape).Idx → EReal)
    (b1 : (⟨1, ![1024]⟩ : Shape).Idx → EReal) (w2 : (⟨2, ![1, 1024]⟩ : Shape).Idx → EReal)
    (b2 : (⟨1, ![1]⟩ : Shape).Idx → EReal) : (⟨2, ![16384, 14]⟩ : Shape).Idx → EReal :=
  fun i => (∑ d : Fin 1024, Ideal.tanh ((∑ h : Fin 1024, x (ix2 (flatRow (i 0) (i 1)) h) * w1 (ix2 h d)) + b1 (ix1 d)) * w2 (ix2 0 d))
    + b2 (ix1 0)

/-- A [14, 16384] table re-read row-major as [16384, 14]: entry (b, s) is the entry at flat position 14 b + s. -/
def reread (T : (⟨2, ![14, 16384]⟩ : Shape).Idx → EReal) : (⟨2, ![16384, 14]⟩ : Shape).Idx → EReal :=
  fun i => T (ix2 (⟨((i 0).val * 14 + (i 1).val) / 16384, by have h0 : (i 0).val < 16384 := (i 0).isLt; have h1 : (i 1).val < 14 := (i 1).isLt; omega⟩ : Fin 14)
    (⟨((i 0).val * 14 + (i 1).val) % 16384, Nat.mod_lt _ (by decide)⟩ : Fin 16384))

/-- Question b's pooled vector: the sum over its 14 tokens of weight a[b,s] times the token's features q[b,s,·]. -/
def pool (a : (⟨2, ![16384, 14]⟩ : Shape).Idx → EReal) (q : (⟨3, ![16384, 14, 1024]⟩ : Shape).Idx → EReal) :
    (⟨2, ![16384, 1024]⟩ : Shape).Idx → EReal :=
  fun i => ∑ s : Fin 14, a (ix2 (i 0) s) * q (ix3 (i 0) s (i 1))

end Cert.AttnPool

end
-- ==== Proof.Layout.lean ====
/-
  Two re-readings of an array's row-major order, against the specification.
  Flattening the questions [16384, 14, 1024] to [229376, 1024] puts token s of question b on row 14 b + s, and
  re-reading the weight column [1024, 1] as a row [1, 1024] puts its entry d at (0, d): so the score computed from
  the flattened arrays (`logitFlat`) is the score computed from the arrays themselves (`logit`).  Re-reading a
  [14, 16384] table as [16384, 14] is `reread`.
-/
import proofs.«142227_j77446850282041_2_alg».proof.Proof.Spec
import Idealize.ShloMosaic.Lib.Pipeline.Value
import Idealize.ShloMosaic.Lib.ValueIdx

noncomputable section

namespace Cert.AttnPool

open Idealize.ShloMosaic Idealize.ShloMosaic.ValueIdx

/-- The score from the flattened questions, the converted first-layer weights (conversion is the identity on the
    extended reals) and the weight column read as a row is the score from the arguments themselves. -/
theorem logitFlat_of_flatten (q : (⟨3, ![16384, 14, 1024]⟩ : Shape).Idx → EReal) (W1 : FVec Ideal ⟨2, ![1024, 1024]⟩ .f32)
    (b1 : (⟨1, ![1024]⟩ : Shape).Idx → EReal) (W2 : (⟨2, ![1024, 1]⟩ : Shape).Idx → EReal)
    (b2 : (⟨1, ![1]⟩ : Shape).Idx → EReal)
    (hq : (⟨3, ![16384, 14, 1024]⟩ : Shape).ShapeCasts ⟨2, ![229376, 1024]⟩)
    (hw : (⟨2, ![1024, 1]⟩ : Shape).ShapeCasts ⟨2, ![1, 1024]⟩) (hlt : FTy.bits .bf16 < FTy.bits .f32) :
    logitFlat (shapeCast ⟨2, ![229376, 1024]⟩ q hq) (truncf .bf16 W1 hlt) b1 (shapeCast ⟨2, ![1, 1024]⟩ W2 hw) b2
      = logit q W1 b1 W2 b2 := by
  funext i
  obtain ⟨b, s, rfl⟩ : ∃ (b : Fin 16384) (s : Fin 14), i = ix2 b s := ⟨i 0, i 1, eq_ix2 i⟩
  show (∑ d : Fin 1024, Ideal.tanh ((∑ h : Fin 1024, shapeCast ⟨2, ![229376, 1024]⟩ q hq (ix2 (flatRow b s) h) * W1 (ix2 h d)) + b1 (ix1 d))
        * shapeCast ⟨2, ![1, 1024]⟩ W2 hw (ix2 0 d)) + b2 (ix1 0)
    = (∑ d : Fin 1024, Ideal.tanh ((∑ h : Fin 1024, q (ix3 b s h) * W1 (ix2 h d)) + b1 (ix1 d)) * W2 (ix2 d 0)) + b2 (ix1 0)
  have eq : ∀ h : Fin 1024, shapeCast ⟨2, ![229376, 1024]⟩ q hq (ix2 (flatRow b s) h) = q (ix3 b s h) := fun h =>
    shapeCast_apply q hq (ix2 (flatRow b s) h) (ix3 b s h) (by
      rewrite [Shape.rowMajor_val_three, Shape.rowMajor_val_two]
      show (b.val * 14 + s.val) * 1024 + h.val = (b.val * 14 + s.val) * 1024 + h.val
      rfl)
  have ew : ∀ d : Fin 1024, shapeCast ⟨2, ![1, 1024]⟩ W2 hw (ix2 (0 : Fin 1) d) = W2 (ix2 d (0 : Fin 1)) := fun d =>
    shapeCast_apply W2 hw (ix2 (0 : Fin 1) d) (ix2 d (0 : Fin 1)) (by
      rewrite [Shape.rowMajor_val_two, Shape.rowMajor_val_two]
      show d.val * 1 + 0 = 0 * 1024 + d.val
      omega)
  simp only [eq, ew]

/-- A [14, 16384] table re-read row-major as [16384, 14] is `reread` of it. -/
theorem shapeCast_eq_reread (T : (⟨2, ![14, 16384]⟩ : Shape).Idx → EReal)
    (h : (⟨2, ![14, 16384]⟩ : Shape).ShapeCasts ⟨2, ![16384, 14]⟩) :
    shapeCast ⟨2, ![16384, 14]⟩ T h = reread T := by
  funext i
  obtain ⟨b, s, rfl⟩ : ∃ (b : Fin 16384) (s : Fin 14), i = ix2 b s := ⟨i 0, i 1, eq_ix2 i⟩
  refine shapeCast_apply T h (ix2 b s) _ ?_
  rewrite [Shape.rowMajor_val_two, Shape.rowMajor_val_two]
  show (b.val * 14 + s.val) / 16384 * 16384 + (b.val * 14 + s.val) % 16384 = b.val * 14 + s.val
  exact Nat.div_add_mod' _ _

end Cert.AttnPool

end
-- ==== Proof.LogitsPayload.lean ====
/-
  The score kernel's one stored value, read at an index.

  The body holds a [1792, 1024] block of token rows x0, the [1024, 1024] first-layer weights x1, the first-layer bias
  x2, the second-layer weights as a [1, 1024] row x3 and the second-layer bias x4.  It stores, as a [128, 14] table
  re-read row-major from a [1792, 1] column, the score of each row: at (p, s) the entry of row 14 p + s,

      sum over d of tanh (sum over h of x0[14 p + s, h] * x1[h, d] + x2[d]) * x3[0, d], plus x4[0].

  On the ideal values rounding to bf16 is the identity, the matrix product into the zero accumulator is the plain sum
  over the contracted axis, and the lane reduction is the sum over the columns.
-/
import proofs.«142227_j77446850282041_2_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.RegionValues.Score
open Cert.KernelIdeal Cert.KernelIdeal.Gen Idealize.ShloMosaic Idealize.ShloMosaic.TcCoe Idealize.SL.Sem
open Idealize.ShloMosaic.ValueIdx

/-- Row 14 p + s of the [1792, ·] block. -/
abbrev blockRow (p : Fin 128) (s : Fin 14) : Fin 1792 := ⟨p.val * 14 + s.val, by have := p.isLt; have := s.isLt; omega⟩

/-- A [1] vector viewed [1,1] and broadcast down a [1792,1] column reads its one entry everywhere. -/
theorem scalar_col_apply (x4 : Vec Ideal S1 .f32) (h1 : S1.ShapeCasts S1x1) (h2 : S1x1.Broadcasts S1792x1) (r : Fin 1792) :
    broadcastTo S1792x1 (shapeCast S1x1 x4 h1) h2 (ix2 r 0) = x4 (ix1 0) := by
  refine (broadcastTo_apply _ h2 (ix2 r 0) (ix2 0 0) fun a => ?_).trans ?_
  · match a with
    | ⟨0, _⟩ => rfl
    | ⟨1, _⟩ => rfl
  · exact shapeCast_apply _ h1 (ix2 0 0) (ix1 0) rfl

/-- A [1024] vector viewed [1,1024] and broadcast over 1792 rows reads its entry at the column. -/
theorem vec_rows_apply (x2 : Vec Ideal S1024 .f32) (h1 : S1024.ShapeCasts S1x1024) (h2 : S1x1024.Broadcasts S1792x1024)
    (r : Fin 1792) (d : Fin 1024) :
    broadcastTo S1792x1024 (shapeCast S1x1024 x2 h1) h2 (ix2 r d) = x2 (ix1 d) := by
  refine (broadcastTo_apply _ h2 (ix2 r d) (ix2 0 d) fun a => ?_).trans ?_
  · match a with
    | ⟨0, _⟩ => rfl
    | ⟨1, _⟩ => show d.val = if (1024 : Nat) = 1 then 0 else d.val; rw [if_neg (by decide)]
  · refine shapeCast_apply _ h1 (ix2 0 d) (ix1 d) ?_
    rw [Shape.rowMajor_val_one, Shape.rowMajor_val_two]
    show d.val = 0 * 1024 + d.val
    omega

/-- A [1,1024] row broadcast over 1792 rows reads its entry at the column. -/
theorem row_rows_apply (x3 : Vec Ideal S1x1024 .f32) (h1 : S1x1024.ShapeCasts S1x1024) (h2 : S1x1024.Broadcasts S1792x1024)
    (r : Fin 1792) (d : Fin 1024) :
    broadcastTo S1792x1024 (shapeCast S1x1024 x3 h1) h2 (ix2 r d) = x3 (ix2 0 d) := by
  rw [shapeCast_self]
  refine broadcastTo_apply _ h2 (ix2 r d) (ix2 0 d) fun a => ?_
  match a with
  | ⟨0, _⟩ => rfl
  | ⟨1, _⟩ => show d.val = if (1024 : Nat) = 1 then 0 else d.val; rw [if_neg (by decide)]

/-- The product's left operand index keeps the output row. -/
theorem dense_lhs_row (i : S1792x1024.Idx) (q : dot_S1792x1024_S1024x1024_S1792x1024_1_0_0_1_n_n.contr.Idx) :
    (dot_S1792x1024_S1024x1024_S1792x1024_1_0_0_1_n_n.lhsIdx i q 0).val = (i 0).val := by
  unfold DotDims.lhsIdx
  rw [dif_neg (show ¬(0 : Fin S1792x1024.rank) ∈ dot_S1792x1024_S1024x1024_S1792x1024_1_0_0_1_n_n.lhsBatch by decide),
    dif_pos (show (0 : Fin S1792x1024.rank) ∈ dot_S1792x1024_S1024x1024_S1792x1024_1_0_0_1_n_n.lhsNonContracting by decide)]
  rfl

/-- The product's right operand index keeps the output column. -/
theorem dense_rhs_col (i : S1792x1024.Idx) (q : dot_S1792x1024_S1024x1024_S1792x1024_1_0_0_1_n_n.contr.Idx) :
    (dot_S1792x1024_S1024x1024_S1792x1024_1_0_0_1_n_n.rhsIdx i q 1).val = (i 1).val := by
  unfold DotDims.rhsIdx
  rw [dif_neg (show ¬(1 : Fin S1024x1024.rank) ∈ dot_S1792x1024_S1024x1024_S1792x1024_1_0_0_1_n_n.rhsBatch by decide),
    dif_pos (show (1 : Fin S1024x1024.rank) ∈ dot_S1792x1024_S1024x1024_S1792x1024_1_0_0_1_n_n.rhsNonContracting by decide)]
  rfl

/-- The matrix product of the block's rows with the first-layer weights, into the zero accumulator, at (r, d):
    the sum over the 1024 features (rounding to bf16 is the identity on the ideal values). -/
theorem dense_at (x0 : FVec Ideal S1792x1024 .f32) (x1 : FVec Ideal S1024x1024 .bf16)
    (h0 : S1792x1024.ShapeCasts S1792x1024) (h1 : S1024x1024.ShapeCasts S1024x1024) (hb : FTy.bits .bf16 < FTy.bits .f32)
    (r : Fin 1792) (d : Fin 1024) :
    matmul dot_S1792x1024_S1024x1024_S1792x1024_1_0_0_1_n_n none (truncf .bf16 (shapeCast S1792x1024 x0 h0) hb)
        (shapeCast S1024x1024 x1 h1) (constant (F := Ideal) S1792x1024 .f32 0x00000000#32) (ix2 r d)
      = ∑ h : Fin 1024, x0 (ix2 r h) * x1 (ix2 h d) := by
  rw [shapeCast_self, shapeCast_self]
  simp only [matmul]
  rw [Ideal.matmul_constant_zero_apply,
    ← Equiv.sum_comp (ValueIdx.contrEquiv1 dot_S1792x1024_S1024x1024_S1792x1024_1_0_0_1_n_n 1024 rfl rfl).symm]
  refine Finset.sum_congr rfl fun k _ => ?_
  have hk := ValueIdx.contrEquiv1_symm_val dot_S1792x1024_S1024x1024_S1792x1024_1_0_0_1_n_n 1024 rfl rfl k
  have el : dot_S1792x1024_S1024x1024_S1792x1024_1_0_0_1_n_n.lhsIdx (ix2 r d)
      ((ValueIdx.contrEquiv1 dot_S1792x1024_S1024x1024_S1792x1024_1_0_0_1_n_n 1024 rfl rfl).symm k) = ix2 r k :=
    funext fun a => Fin.ext (by
      match a with
      | ⟨0, _⟩ => exact dense_lhs_row _ _
      | ⟨1, _⟩ => exact (dot_S1792x1024_S1024x1024_S1792x1024_1_0_0_1_n_n.lhsIdx_val_of_single rfl _ _).trans hk)
  have er : dot_S1792x1024_S1024x1024_S1792x1024_1_0_0_1_n_n.rhsIdx (ix2 r d)
      ((ValueIdx.contrEquiv1 dot_S1792x1024_S1024x1024_S1792x1024_1_0_0_1_n_n 1024 rfl rfl).symm k) = ix2 k d :=
    funext fun a => Fin.ext (by
      match a with
      | ⟨0, _⟩ => exact (dot_S1792x1024_S1024x1024_S1792x1024_1_0_0_1_n_n.rhsIdx_val_of_single rfl _ _).trans hk
      | ⟨1, _⟩ => exact dense_rhs_col _ _)
  rw [el, er, truncf_apply]

/-- The stored [128, 14] table at (p, s) is the score of row 14 p + s of the block. -/
theorem payload_at (x0 : Vec Ideal S1792x1024 .f32) (x1 : Vec Ideal S1024x1024 .bf16) (x2 : Vec Ideal S1024 .f32)
    (x3 : Vec Ideal S1x1024 .f32) (x4 : Vec Ideal S1 .f32) (p : Fin 128) (s : Fin 14) :
    Gen.k0_pay1 x0 x1 x2 x3 x4 (ix2 p s)
      = (∑ d : Fin 1024, Ideal.tanh ((∑ h : Fin 1024, x0 (ix2 (blockRow p s) h) * x1 (ix2 h d)) + x2 (ix1 d)) * x3 (ix2 0 d))
        + x4 (ix1 0) := by
  unfold Gen.k0_pay1
  refine (shapeCast_apply _ _ (ix2 p s) (ix2 (blockRow p s) 0) ?_).trans ?_
  · rw [Shape.rowMajor_val_two, Shape.rowMajor_val_two]
    show (p.val * 14 + s.val) * 1 + 0 = p.val * 14 + s.val
    omega
  rw [addf_apply, scalar_col_apply]
  refine congrArg (· + x4 (ix1 0)) ?_
  refine (shapeCast_apply _ _ (ix2 (blockRow p s) 0) (ix1 (blockRow p s)) ?_).trans ?_
  · rw [Shape.rowMajor_val_one, Shape.rowMajor_val_two]
    show p.val * 14 + s.val = (p.val * 14 + s.val) * 1 + 0
    omega
  refine (Ideal.multiReduction_add_single _ 0x00000000#32 reduces_S1792x1024_S1792 _ _ (ix1 (blockRow p s))).trans ?_
  show ∑ d : Fin 1024, _ = _
  refine Finset.sum_congr rfl fun d _ => ?_
  have hl : reduces_S1792x1024_S1792.lift (ix1 (blockRow p s)) d = ix2 (blockRow p s) d :=
    funext fun a => Fin.ext (by
      match a with
      | ⟨0, _⟩ => rfl
      | ⟨1, _⟩ => rfl)
  rw [hl, mulf_apply, row_rows_apply]
  refine congrArg (· * x3 (ix2 0 d)) ?_
  change Ideal.tanh _ = Ideal.tanh _
  refine congrArg Ideal.tanh ?_
  rw [addf_apply, vec_rows_apply]
  refine congrArg (· + x2 (ix1 d)) ?_
  exact dense_at x0 x1 _ _ _ (blockRow p s) d

end Cert.KernelIdeal.RegionValues.Score
end
-- ==== Proof.Logits.lean ====
/-
  Region 0, the score kernel: the [16384, 14] array it leaves is the table of scores.

  The pipeline runs over 128 points.  At point t it stages rows 1792 t … 1792 t + 1791 of the questions flattened to
  [229376, 1024], together with the whole first-layer weights, first-layer bias, second-layer row and second-layer
  bias, and writes back rows 128 t … 128 t + 127 of the [16384, 14] result.  The stored table at (p, s) is the score
  of block row 14 p + s, that is of array row 1792 t + 14 p + s = 14 (128 t + p) + s: token s of question 128 t + p.
  So what point t writes back is block t of the one whole-array function `logitFlat`; the 128 blocks tile the
  result (row r is in block r / 128), hence the array ends holding `logitFlat` of the arrays as the region finds them.
-/
import proofs.«142227_j77446850282041_2_alg».proof.Proof.Gen.KernelIdeal.Frame
import proofs.«142227_j77446850282041_2_alg».proof.Proof.Spec
import proofs.«142227_j77446850282041_2_alg».proof.Proof.LogitsPayload
import Idealize.ShloMosaic.Lib.Pipeline.Value
import Idealize.ShloMosaic.Lib.ValueIdx

noncomputable section
namespace Cert.KernelIdeal.RegionValues
open Cert.KernelIdeal Cert.KernelIdeal.Gen Idealize.ShloMosaic Idealize.ShloMosaic.TcCoe Idealize.SL.Sem Cert.AttnPool
open Idealize.ShloMosaic.ValueIdx
open Idealize.ShloMosaic.Pipeline (Dat)

namespace Score

/-- The zero offsets of a whole-buffer access, rank 2 and rank 1. -/
theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: at point t the row window and the output window sit at block t,
    every other window at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Over abstract arrays: when the staged row block holds, in its row 14 p + s, row 14 b + s of the array A0, and the
    other staged blocks are the arrays A1 … A4, the stored table at (p, s) is the score at (b, s). -/
theorem point_value (A0 : (⟨2, ![229376, 1024]⟩ : Shape).Idx → EReal) (A1 : (⟨2, ![1024, 1024]⟩ : Shape).Idx → EReal)
    (A2 : (⟨1, ![1024]⟩ : Shape).Idx → EReal) (A3 : (⟨2, ![1, 1024]⟩ : Shape).Idx → EReal) (A4 : (⟨1, ![1]⟩ : Shape).Idx → EReal)
    (x0 : Vec Ideal S1792x1024 .f32) (x1 : Vec Ideal S1024x1024 .bf16) (x2 : Vec Ideal S1024 .f32)
    (x3 : Vec Ideal S1x1024 .f32) (x4 : Vec Ideal S1 .f32) (p : Fin 128) (s : Fin 14) (b : Fin 16384)
    (h0 : ∀ h : Fin 1024, x0 (ix2 (blockRow p s) h) = A0 (ix2 (flatRow b s) h))
    (h1 : ∀ j, x1 j = A1 j) (h2 : ∀ j, x2 j = A2 j) (h3 : ∀ j, x3 j = A3 j) (h4 : ∀ j, x4 j = A4 j) :
    Gen.k0_pay1 x0 x1 x2 x3 x4 (ix2 p s) = logitFlat A0 A1 A2 A3 A4 (ix2 b s) := by
  rw [payload_at]
  show _ = (∑ d : Fin 1024, Ideal.tanh ((∑ h : Fin 1024, A0 (ix2 (flatRow b s) h) * A1 (ix2 h d)) + A2 (ix1 d)) * A3 (ix2 0 d))
    + A4 (ix1 0)
  rw [h4]
  refine congrArg (· + A4 (ix1 0)) (Finset.sum_congr rfl fun d _ => ?_)
  rw [h2, h3]
  refine congrArg (fun z => Ideal.tanh (z + A2 (ix1 d)) * A3 (ix2 0 d)) (Finset.sum_congr rfl fun h _ => ?_)
  rw [h0, h1]

section Blocks
variable (V : (c : Dev nD) → (b : Ref sig .tc) → Buf (Elt Ideal) ((c : Thread nD τ).loc b)) (c : Dev nD) (t : Fin cfg0.N)

/-- The staged row block at point t is rows 1792 t … 1792 t + 1791 of the flattened questions. -/
theorem rows_read (j : S1792x1024.Idx) (i : S229376x1024.Idx)
    (hi0 : (i 0).val = 1792 * t.val + (j 0).val) (hi1 : (i 1).val = (j 1).val) :
    (iblk0 V c 0 t : Vec Ideal S1792x1024 .f32) j = (V c main_v2 : S229376x1024.Idx → EReal) i := by
  obtain ⟨e0, e1, -⟩ := index_facts t
  unfold iblk0
  rw [View.read_apply]
  show V c main_v2 _ = V c main_v2 _
  congr 1
  funext a
  apply Fin.ext
  match a with
  | ⟨0, _⟩ => show win0_0.index t 0 * 1792 + 1 * (j 0).val = (i 0).val; rw [e0, hi0]; omega
  | ⟨1, _⟩ => show win0_0.index t 1 * 1024 + 1 * (j 1).val = (i 1).val; rw [e1, hi1]; omega

/-- The staged first-layer weights are the whole array at every point. -/
theorem weights_read (j : S1024x1024.Idx) :
    (iblk0 V c 1 t : Vec Ideal S1024x1024 .bf16) j = (V c main_v0 : S1024x1024.Idx → EReal) j := by
  obtain ⟨-, -, e0, e1, -⟩ := index_facts t
  unfold iblk0
  rw [View.read_apply]
  show V c main_v0 _ = V c main_v0 _
  congr 1
  funext a
  apply Fin.ext
  match a with
  | ⟨0, _⟩ => show win0_1.index t 0 * 1024 + 1 * (j 0).val = (j 0).val; rw [e0]; omega
  | ⟨1, _⟩ => show win0_1.index t 1 * 1024 + 1 * (j 1).val = (j 1).val; rw [e1]; omega

/-- The staged first-layer bias is the whole array at every point. -/
theorem bias1_read (j : S1024.Idx) :
    (iblk0 V c 2 t : Vec Ideal S1024 .f32) j = (V c main_arg2 : S1024.Idx → EReal) j := by
  obtain ⟨-, -, -, -, e0, -⟩ := index_facts t
  unfold iblk0
  rw [View.read_apply]
  show V c main_arg2 _ = V c main_arg2 _
  congr 1
  funext a
  apply Fin.ext
  match a with
  | ⟨0, _⟩ => show win0_2.index t 0 * 1024 + 1 * (j 0).val = (j 0).val; rw [e0]; omega

/-- The staged second-layer row is the whole array at every point. -/
theorem weights2_read (j : S1x1024.Idx) :
    (iblk0 V c 3 t : Vec Ideal S1x1024 .f32) j = (V c main_v1 : S1x1024.Idx → EReal) j := by
  obtain ⟨-, -, -, -, -, e0, e1, -⟩ := index_facts t
  unfold iblk0
  rw [View.read_apply]
  show V c main_v1 _ = V c main_v1 _
  congr 1
  funext a
  apply Fin.ext
  match a with
  | ⟨0, _⟩ => show win0_3.index t 0 * 1 + 1 * (j 0).val = (j 0).val; rw [e0]; omega
  | ⟨1, _⟩ => show win0_3.index t 1 * 1024 + 1 * (j 1).val = (j 1).val; rw [e1]; omega

/-- The staged second-layer bias is the whole array at every point. -/
theorem bias2_read (j : S1.Idx) :
    (iblk0 V c 4 t : Vec Ideal S1 .f32) j = (V c main_arg4 : S1.Idx → EReal) j := by
  obtain ⟨-, -, -, -, -, -, -, e0, -⟩ := index_facts t
  unfold iblk0
  rw [View.read_apply]
  show V c main_arg4 _ = V c main_arg4 _
  congr 1
  funext a
  apply Fin.ext
  match a with
  | ⟨0, _⟩ => show win0_4.index t 0 * 1 + 1 * (j 0).val = (j 0).val; rw [e0]; omega

/-- WHAT POINT t WRITES BACK is block t of the scores of the arrays as the region finds them. -/
theorem flushed_eq :
    (dat0 (F := Ideal) V c).flushed 5 t
      = ((cfg0.win 5).blk t).view.read (Elt Ideal)
          (logitFlat (V c main_v2) (V c main_v0) (V c main_arg2) (V c main_v1) (V c main_arg4)) := by
  show (cfg0.win 5).cut (grid0.coords t) ((dat0 V c).after 5 t) = _
  rw [after0_5]
  unfold out0_5
  rw [View.canon_unit_zero zeros2]
  simp only [View.ld_unit_zero (S := S1792x1024) zeros2, View.ld_unit_zero (S := S1024x1024) zeros2,
    View.ld_unit_zero (S := S1024) zeros1, View.ld_unit_zero (S := S1x1024) zeros2, View.ld_unit_zero (S := S1) zeros1]
  funext y
  have hy0 : (y 0).val < 128 := (y 0).isLt
  have hy1 : (y 1).val < 14 := (y 1).isLt
  have ht : t.val < 128 := lt_of_lt_of_eq t.isLt (show cfg0.N = 128 from N_0)
  obtain ⟨-, -, -, -, -, -, -, -, e0, e1⟩ := index_facts t
  have hx : (win0 5).xinj (grid0.coords t) y = ix2 (⟨(y 0).val, hy0⟩ : Fin 128) (⟨(y 1).val, hy1⟩ : Fin 14) :=
    funext fun a => by
      match a with
      | ⟨0, _⟩ => rfl
      | ⟨1, _⟩ => rfl
  have hemb : ((cfg0.win 5).blk t).view.emb y
      = ix2 (⟨128 * t.val + (y 0).val, by omega⟩ : Fin 16384) (⟨(y 1).val, hy1⟩ : Fin 14) := by
    funext a
    apply Fin.ext
    match a with
    | ⟨0, _⟩ => show win0_5.index t 0 * 128 + 1 * (y 0).val = 128 * t.val + (y 0).val; rw [e0]; omega
    | ⟨1, _⟩ => show win0_5.index t 1 * 14 + 1 * (y 1).val = (y 1).val; rw [e1]; omega
  rw [View.read_apply]
  show Gen.k0_pay1 (F := Ideal) _ _ _ _ _ ((win0 5).xinj (grid0.coords t) y) = logitFlat _ _ _ _ _ (((cfg0.win 5).blk t).view.emb y)
  rw [hx, hemb]
  refine point_value _ _ _ _ _ (iblk0 V c 0 t) (iblk0 V c 1 t) (iblk0 V c 2 t) (iblk0 V c 3 t) (iblk0 V c 4 t) _ _ _
    (fun h => rows_read V c t _ _ ?_ rfl) (weights_read V c t) (bias1_read V c t) (weights2_read V c t) (bias2_read V c t)
  show (128 * t.val + (y 0).val) * 14 + (y 1).val = 1792 * t.val + ((y 0).val * 14 + (y 1).val)
  omega

end Blocks

/-- An index of the [16384, 14] array is in point t's block iff each coordinate is in the block's range on its axis. -/
theorem mem_block (t : Fin cfg0.N) (i : S16384x14.Idx) :
    i ∈ ((cfg0.win 5).blk t).view.set
      ↔ ∀ a : Fin 2, win0_5.index t a * S128x14.size a ≤ (i a).val ∧ (i a).val < win0_5.index t a * S128x14.size a + S128x14.size a := by
  show i ∈ ((View.whole main_v3).slice (win0_5.rect t)).set ↔ _
  rw [View.set_slice_whole, Rect.mem_set_unit]
  exact Iff.rfl

/-- Every index is in some point's block: row r is written by point r / 128. -/
theorem covered (i : S16384x14.Idx) :
    ∃ t : Fin cfg0.N, (cfg0.win 5).flush t = true ∧ i ∈ ((cfg0.win 5).blk t).view.set := by
  have hi0 : (i 0).val < 16384 := (i 0).isLt
  have hi1 : (i 1).val < 14 := (i 1).isLt
  have hN : cfg0.N = 128 := N_0
  have hq : (i 0).val / 128 < cfg0.N := by rw [hN]; omega
  obtain ⟨-, -, -, -, -, -, -, -, e0, e1⟩ := index_facts ⟨(i 0).val / 128, hq⟩
  refine ⟨⟨(i 0).val / 128, hq⟩, flush0_5 _, ?_⟩
  rw [mem_block]
  intro a
  match a with
  | ⟨0, _⟩ =>
    show win0_5.index ⟨(i 0).val / 128, hq⟩ 0 * 128 ≤ (i 0).val ∧ (i 0).val < win0_5.index ⟨(i 0).val / 128, hq⟩ 0 * 128 + 128
    rw [e0]
    show (i 0).val / 128 * 128 ≤ (i 0).val ∧ (i 0).val < (i 0).val / 128 * 128 + 128
    omega
  | ⟨1, _⟩ =>
    show win0_5.index ⟨(i 0).val / 128, hq⟩ 1 * 14 ≤ (i 1).val ∧ (i 1).val < win0_5.index ⟨(i 0).val / 128, hq⟩ 1 * 14 + 14
    rw [e1]
    omega

end Score

/-- THE ARRAY after the run of the score kernel: the scores of the arrays as the region finds them. -/
theorem logits_final (V : (c : Dev nD) → (b : Ref sig .tc) → Buf (Elt Ideal) ((c : Thread nD τ).loc b)) (c : Dev nD) :
    (dat0 (F := Ideal) V c).arrAt 5 cfg0.N
      = logitFlat (V c main_v2) (V c main_v0) (V c main_arg2) (V c main_v1) (V c main_arg4) :=
  (dat0 V c).arrAt_eq_of_cover 5 _ (fun t _ => Score.flushed_eq V c t) Score.covered

end Cert.KernelIdeal.RegionValues
end
-- ==== Proof.Pool.lean ====
/-
  Region 1, the pooling kernel, read as one function of the arrays it finds.

  The pipeline has 64 points. At point t it stages rows 256 t … 256 t + 255 of the [16384, 14] weights, the slab of
  the same 256 questions of the [16384, 14, 1024] questions, and writes back rows 256 t … 256 t + 255 of the
  [16384, 1024] result. The body's one store is fourteen unrolled steps acc := acc + a[:, s] * q[:, s, :] from the zero
  splat: at (r, h) of the block the left-nested sum ((0 + a[r,0] q[r,0,h]) + a[r,1] q[r,1,h]) + … + a[r,13] q[r,13,h],
  which on the extended reals is the sum over s : Fin 14 of a[r,s] * q[r,s,h] (0 + x = x, and a sum over Fin (n + 1)
  is the sum over Fin n plus its last term; addition of extended reals needs no finiteness for this).
  So point t writes block t of `pool` of the two arrays, the 64 blocks tile the result (question b is in block b / 256),
  and the result array after the region is `pool` of the weights and the questions as the region finds them.
-/
import proofs.«142227_j77446850282041_2_alg».proof.Proof.Gen.KernelIdeal.Frame
import proofs.«142227_j77446850282041_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolRegion
open Cert.KernelIdeal Cert.KernelIdeal.Gen Idealize.ShloMosaic Idealize.ShloMosaic.TcCoe Idealize.SL.Sem Cert.AttnPool
open Idealize.ShloMosaic.ValueIdx

/-! ## Layout operations of one pooling step, read at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- One pooling step's product at `(r, h)`: column `o` of the weights, broadcast along the features, times token `o`'s
    slab of the questions, is `a[r, o] * q[r, o, h]`. -/
theorem step_apply (a : FVec Ideal S256x14 .f32) (q : Vec Ideal S256x14x1024 .f32) (o : ℕ) (s : Fin 14) (hs : s.val = o)
    (h1 : S256x14.Slices ![0, o] S256x1) (h2 : S256x14x1024.Slices ![0, o, 0] S256x1x1024) (r : Fin 256) (h : Fin 1024) :
    mulf (broadcastTo S256x1024 (extractStridedSlice S256x1 ![0, o] a h1) broadcasts_S256x1_S256x1024)
        (shapeCast S256x1024 (extractStridedSlice S256x1x1024 ![0, o, 0] q h2) shapeCasts_S256x1x1024_S256x1024) (ix2 r h)
      = a (ix2 r s) * q (ix3 r s h) := by
  rw [mulf_apply, broadcastTo_a1_ab_apply, shapeCast_a1b_ab_apply,
    slice2_axis1_apply o a h1 r (0 : Fin 1) s (by rw [hs]; rfl),
    slice3_axis1_apply o q h2 r (0 : Fin 1) h s (by rw [hs]; rfl)]

/-- The zero word of the accumulator's start is the zero of the extended reals. -/
theorem zero_splat_apply (i : S256x1024.Idx) :
    (broadcast S256x1024 (Scalar.ofBits (F := Ideal) .f32 0x00000000#32) : FVec Ideal S256x1024 .f32) i = (0 : EReal) :=
  Ideal.ofBits_zero_f32

/-- THE BODY'S PAYLOAD AT AN INDEX: the fourteen unrolled steps `acc := acc + a[:, s] * q[:, s, :]` from the zero splat
    leave, at `(r, h)`, the sum over the fourteen tokens of `a[r, s] * q[r, s, h]` (the sum unfolds from its last term,
    in the order the steps add). -/
theorem payload_at (a : Vec Ideal S256x14 .f32) (q : Vec Ideal S256x14x1024 .f32) (r : Fin 256) (h : Fin 1024) :
    k1_pay1 (k1_pay2 a) q (k1_pay3 a q) (k1_pay4 a) (ix2 r h) = ∑ s : Fin 14, a (ix2 r s) * q (ix3 r s h) := by
  have e2 : k1_pay2 a = a := shapeCast_self a _
  unfold k1_pay1 k1_pay3 k1_pay4
  rw [e2]
  dsimp only
  simp only [addf_apply]
  rw [step_apply a q 0 0 rfl, step_apply a q 1 1 rfl, step_apply a q 2 2 rfl, step_apply a q 3 3 rfl,
    step_apply a q 4 4 rfl, step_apply a q 5 5 rfl, step_apply a q 6 6 rfl, step_apply a q 7 7 rfl,
    step_apply a q 8 8 rfl, step_apply a q 9 9 rfl, step_apply a q 10 10 rfl, step_apply a q 11 11 rfl,
    step_apply a q 12 12 rfl, step_apply a q 13 13 rfl, zero_splat_apply, zero_add]
  simp only [Fin.sum_univ_castSucc, Fin.sum_univ_zero, zero_add]
  rfl

/-! ## From the blocks to the array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps at each of the 64 points: at point `t` each window's block index is `t` on the questions' axis and
    `0` on every other axis. -/
theorem block_index : ∀ t : Fin cfg1.N, win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Row `r` of the weights' block at point `t` is row `256 t + r` of the weights. -/
theorem weights_block (c : Dev nD) (t : Fin cfg1.N) (r : Fin 256) (s : Fin 14) (k : S16384x14.Idx)
    (hk0 : (k 0).val = t.val * 256 + r.val) (hk1 : (k 1).val = s.val) :
    (iblk1 V c 0 t : Vec Ideal S256x14 .f32) (ix2 r s) = (V c main_v16 : S16384x14.Idx → EReal) k := by
  obtain ⟨e0, e1, -⟩ := block_index t
  show (V c main_v16 : S16384x14.Idx → EReal) (((cfg1.win 0).blk t).view.emb (ix2 r s)) = _
  refine congrArg (V c main_v16 : S16384x14.Idx → EReal) (funext fun a => Fin.ext ?_)
  match a with
  | ⟨0, _⟩ => show win1_0.index t (0 : Fin 2) * 256 + 1 * r.val = (k 0).val; rw [e0, hk0]; omega
  | ⟨1, _⟩ => show win1_0.index t (1 : Fin 2) * 14 + 1 * s.val = (k 1).val; rw [e1, hk1]; omega

/-- Question `r` of the questions' block at point `t` is question `256 t + r`. -/
theorem questions_block (c : Dev nD) (t : Fin cfg1.N) (r : Fin 256) (s : Fin 14) (h : Fin 1024) (k : S16384x14x1024.Idx)
    (hk0 : (k 0).val = t.val * 256 + r.val) (hk1 : (k 1).val = s.val) (hk2 : (k 2).val = h.val) :
    (iblk1 V c 1 t : Vec Ideal S256x14x1024 .f32) (ix3 r s h) = (V c main_arg0 : S16384x14x1024.Idx → EReal) k := by
  obtain ⟨-, -, e0, e1, e2, -⟩ := block_index t
  show (V c main_arg0 : S16384x14x1024.Idx → EReal) (((cfg1.win 1).blk t).view.emb (ix3 r s h)) = _
  refine congrArg (V c main_arg0 : S16384x14x1024.Idx → EReal) (funext fun a => Fin.ext ?_)
  match a with
  | ⟨0, _⟩ => show win1_1.index t (0 : Fin 3) * 256 + 1 * r.val = (k 0).val; rw [e0, hk0]; omega
  | ⟨1, _⟩ => show win1_1.index t (1 : Fin 3) * 14 + 1 * s.val = (k 1).val; rw [e1, hk1]; omega
  | ⟨2, _⟩ => show win1_1.index t (2 : Fin 3) * 1024 + 1 * h.val = (k 2).val; rw [e2, hk2]; omega

/-- What the body leaves at `(r, h)` of point `t`'s output block is the pooled vector of question `256 t + r` at
    feature `h`. -/
theorem block_value (c : Dev nD) (t : Fin cfg1.N) (r : Fin 256) (h : Fin 1024) (i : S16384x1024.Idx)
    (hi0 : (i 0).val = t.val * 256 + r.val) (hi1 : (i 1).val = h.val) :
    k1_pay1 (k1_pay2 (iblk1 V c 0 t)) (iblk1 V c 1 t) (k1_pay3 (iblk1 V c 0 t) (iblk1 V c 1 t)) (k1_pay4 (iblk1 V c 0 t)) (ix2 r h)
      = pool (V c main_v16) (V c main_arg0) i := by
  refine (payload_at (iblk1 V c 0 t) (iblk1 V c 1 t) r h).trans ?_
  unfold Cert.AttnPool.pool
  refine Finset.sum_congr rfl fun s _ => ?_
  rw [weights_block V c t r s (ix2 (i 0) s) hi0 rfl, questions_block V c t r s h (ix3 (i 0) s (i 1)) hi0 rfl hi1]

/-- WHAT POINT `t` WRITES BACK is block `t` of the pooled array of the weights and the questions as the region finds them. -/
theorem flushed_eq (c : Dev nD) (t : Fin cfg1.N) :
    (dat1 (F := Ideal) V c).flushed 2 t
      = ((cfg1.win 2).blk t).view.read (Elt Ideal) (pool (V c main_v16) (V c main_arg0)) := by
  show (cfg1.win 2).cut (grid1.coords t) ((dat1 V c).after 2 t) = _
  rw [after1_2]
  unfold out1_2
  rw [View.canon_unit_zero zeros2]
  simp only [View.ld_unit_zero (S := S256x14) zeros2, View.ld_unit_zero (S := S256x14x1024) zeros3]
  funext y
  obtain ⟨-, -, -, -, -, e0, e1⟩ := block_index t
  have hy0 : (y 0).val < 256 := (y 0).isLt
  have hy1 : (y 1).val < 1024 := (y 1).isLt
  have hy : (win1 2).xinj (grid1.coords t) y = ix2 (⟨(y 0).val, hy0⟩ : Fin 256) (⟨(y 1).val, hy1⟩ : Fin 1024) :=
    funext fun a => by match a with | ⟨0, _⟩ => rfl | ⟨1, _⟩ => rfl
  show k1_pay1 (k1_pay2 (iblk1 V c 0 t)) (iblk1 V c 1 t) (k1_pay3 (iblk1 V c 0 t) (iblk1 V c 1 t)) (k1_pay4 (iblk1 V c 0 t))
      ((win1 2).xinj (grid1.coords t) y)
    = pool (V c main_v16) (V c main_arg0) (((cfg1.win 2).blk t).view.emb y)
  rw [hy]
  refine block_value V c t _ _ _ ?_ ?_
  · show win1_2.index t (0 : Fin 2) * 256 + 1 * (y 0).val = t.val * 256 + (y 0).val; rw [e0]; omega
  · show win1_2.index t (1 : Fin 2) * 1024 + 1 * (y 1).val = (y 1).val; rw [e1]; omega

/-- An index of the pooled array is in point `t`'s block iff each coordinate is in the block's range on its axis. -/
theorem mem_block (t : Fin cfg1.N) (i : S16384x1024.Idx) :
    i ∈ ((cfg1.win 2).blk t).view.set ↔ ∀ a : Fin 2, win1_2.index t a * S256x1024.size a ≤ (i a).val
      ∧ (i a).val < win1_2.index t a * S256x1024.size a + S256x1024.size a := by
  show i ∈ ((View.whole main_v17).slice (win1_2.rect t)).set ↔ _
  rw [View.set_slice_whole, Rect.mem_set_unit]
  exact Iff.rfl

/-- Every question's row is in some point's block: question `b` is written back by point `b / 256`. -/
theorem cover (i : S16384x1024.Idx) :
    ∃ t : Fin cfg1.N, (cfg1.win 2).flush t = true ∧ i ∈ ((cfg1.win 2).blk t).view.set := by
  have hi0 : (i 0).val < 16384 := (i 0).isLt
  have hi1 : (i 1).val < 1024 := (i 1).isLt
  have hN : cfg1.N = 64 := N_1
  have hlt : (i 0).val / 256 < cfg1.N := by rw [hN]; omega
  obtain ⟨-, -, -, -, -, e0, e1⟩ := block_index ⟨(i 0).val / 256, hlt⟩
  refine ⟨⟨(i 0).val / 256, hlt⟩, flush1_2 _, ?_⟩
  rw [mem_block]
  intro a
  match a with
  | ⟨0, _⟩ =>
    show win1_2.index ⟨(i 0).val / 256, hlt⟩ (0 : Fin 2) * 256 ≤ (i 0).val
      ∧ (i 0).val < win1_2.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win1_2.index ⟨(i 0).val / 256, hlt⟩ (1 : Fin 2) * 1024 ≤ (i 1).val
      ∧ (i 1).val < win1_2.index ⟨(i 0).val / 256, hlt⟩ (1 : Fin 2) * 1024 + 1024
    rw [e1]; omega

end Cert.KernelIdeal.PoolRegion

namespace Cert.KernelIdeal.RegionValues
open Cert.KernelIdeal Cert.KernelIdeal.Gen Idealize.ShloMosaic Idealize.ShloMosaic.TcCoe Idealize.SL.Sem Cert.AttnPool
open Idealize.ShloMosaic.ValueIdx

/-- THE POOLED ARRAY after the region: every question's pooled vector, the weighted sum over its fourteen tokens. -/
theorem pool_final (V : (c : Dev nD) → (b : Ref sig .tc) → Buf (Elt Ideal) ((c : Thread nD τ).loc b)) (c : Dev nD) :
    (dat1 (F := Ideal) V c).arrAt 2 cfg1.N = pool (V c main_v16) (V c main_arg0) :=
  (dat1 V c).arrAt_eq_of_cover 2 _ (fun t _ => PoolRegion.flushed_eq V c t) PoolRegion.cover

end Cert.KernelIdeal.RegionValues

end
-- ==== Proof.KernelRun.lean ====
/-
  The kernel program's run with its result named.  @main is four segments — the host operations before the score
  kernel, the score kernel's pipeline, the host operations between the two kernels (the softmax over the batch), the
  pooling kernel's pipeline — and every weakly fair execution ends with each unscoped buffer of a core at the contents
  the last segment boundary gives it.  So the result buffer ends at the last boundary's contents of that buffer, and the
  five argument buffers end as launched.
-/
import proofs.«142227_j77446850282041_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    contents the last segment boundary gives it, and the argument buffers end as launched. -/
theorem run_result : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.HostSide.lean ====
/-
  The host operations of the kernel program, read.  Before the score kernel: the first-layer weights are converted to
  the narrower float format (the identity on extended reals), the second-layer column [1024, 1] is re-read as a row
  [1, 1024], the questions [16384, 14, 1024] as a [229376, 1024] matrix.  Between the two kernels: the score table
  [16384, 14] is transposed, each of its 14 rows is normalised by a softmax over the 16384 questions (maximum, subtract,
  exponential, sum, divide), and the [14, 16384] table of weights is re-read row-major as [16384, 14].
-/
import proofs.«142227_j77446850282041_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The softmax over the batch of a [16384, 14] score table, as a [14, 16384] table: row s is the scores of token
    position s over all questions, shifted by their maximum, exponentiated and divided by the sum of the exponentials. -/
def softmaxT (L : FVec F S16384x14 .f32) : FVec F S14x16384 .f32 :=
  let t : FVec F S14x16384 .f32 := transpose S14x16384 [1, 0] L transposes_S16384x14_S14x16384_1_0
  let mx : FVec F S14 .f32 := maximumf (broadcastInDim S14 ![] bcast_S_S14 (constant S_ .f32 0xFF800000#32))
    (Host.reduce FloatOps.maximumf t (constant S_ .f32 0xFF800000#32) reducesTo_S14x16384_S14_d1 h_S_)
  let e : FVec F S14x16384 .f32 := Host.exp (subf t (broadcastInDim S14x16384 ![0, 1] bcast_S14x1_S14x16384_0_1 (broadcastInDim S14x1 ![0] bcast_S14_S14x1_0 mx)))
  let z : FVec F S14 .f32 := Host.reduceAdd e (constant S_ .f32 0x00000000#32) reducesTo_S14x16384_S14_d1 h_S_
  Host.divf e (broadcastInDim S14x16384 ![0, 1] bcast_S14x1_S14x16384_0_1 (broadcastInDim S14x1 ![0] bcast_S14_S14x1_0 z))

variable (m : (ℓ : Loc nD τ sig) → Buf (Elt F) ℓ) (ρ : Dev nD → PrngReg)

/-- The score kernel finds the questions flattened to [229376, 1024]. -/
theorem entry_questions (c : Dev nD) :
    V1 m ρ c main_v2 = shapeCast S229376x1024 (m ((c : Thread nD τ).loc main_arg0)) shapeCasts_S16384x14x1024_S229376x1024 := by
  show StableHlo.after hostOps0 (W0 m ρ c) (Proc.devRef .tc main_v2) = _
  after_results <;> rfl

/-- … the first-layer weights converted to the narrower format, … -/
theorem entry_w1 (c : Dev nD) :
    V1 m ρ c main_v0 = truncf .bf16 (m ((c : Thread nD τ).loc main_arg1)) bitsLt_bf16_f32 := by
  show StableHlo.after hostOps0 (W0 m ρ c) (Proc.devRef .tc main_v0) = _
  after_results <;> rfl

/-- … the second-layer column as a row, … -/
theorem entry_w2 (c : Dev nD) :
    V1 m ρ c main_v1 = shapeCast S1x1024 (m ((c : Thread nD τ).loc main_arg3)) shapeCasts_S1024x1_S1x1024 := by
  show StableHlo.after hostOps0 (W0 m ρ c) (Proc.devRef .tc main_v1) = _
  after_results <;> rfl

/-- … and the two biases as launched. -/
theorem entry_b1 (c : Dev nD) : V1 m ρ c main_arg2 = m ((c : Thread nD τ).loc main_arg2) := by
  show StableHlo.after hostOps0 (W0 m ρ c) (Proc.devRef .tc main_arg2) = _
  after_results <;> rfl

theorem entry_b2 (c : Dev nD) : V1 m ρ c main_arg4 = m ((c : Thread nD τ).loc main_arg4) := by
  show StableHlo.after hostOps0 (W0 m ρ c) (Proc.devRef .tc main_arg4) = _
  after_results <;> rfl

/-- The pooling kernel finds, as its weights, the softmax over the batch of the score kernel's result, re-read
    row-major as [16384, 14]. -/
theorem entry_weights (c : Dev nD) :
    V3 m ρ c main_v16 = shapeCast S16384x14 (softmaxT (W2 m ρ c (Proc.devRef .tc main_v3))) shapeCasts_S14x16384_S16384x14 := by
  show StableHlo.after hostOps1 (W2 m ρ c) (Proc.devRef .tc main_v16) = _
  after_results <;> rfl

/-- … and the questions as launched: no host operation and no kernel writes them. -/
theorem entry_pool_questions (c : Dev nD) : V3 m ρ c main_arg0 = m ((c : Thread nD τ).loc main_arg0) :=
  ((W4_arr m ρ c 1).trans (((dat1 (V3 m ρ) c).arrAt_in 1 rfl _).trans (A_eq1 (V3 m ρ) c 1))).symm.trans (W4_main_arg0 m ρ c)

end Cert.KernelIdeal.HostSide

end
-- ==== Proof.RefSide.lean ====
/-
  The reference program, read against the specification.  Its score table is `logit` of the arguments; its weights are
  the softmax over the batch of that table, re-read row-major; its result is `pool` of those weights and the questions.
-/
import proofs.«142227_j77446850282041_2_alg».proof.Proof.Gen.ReferenceIdeal.Read
import proofs.«142227_j77446850282041_2_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.AttnPool

variable {F : FTy → Type} [FloatOps F]

/-- The softmax over the batch of a [16384, 14] score table, as a [14, 16384] table: row s is the scores of token
    position s over all questions, shifted by their maximum, exponentiated and divided by the sum of the exponentials. -/
def softmaxT (L : FVec F S16384x14 .f32) : FVec F S14x16384 .f32 :=
  let t : FVec F S14x16384 .f32 := transpose S14x16384 [1, 0] L transposes_S16384x14_S14x16384_1_0
  let mx : FVec F S14 .f32 := maximumf (broadcastInDim S14 ![] bcast_S_S14 (constant S_ .f32 0xFF800000#32))
    (Host.reduce FloatOps.maximumf t (constant S_ .f32 0xFF800000#32) reducesTo_S14x16384_S14_d1 h_S_)
  let e : FVec F S14x16384 .f32 := Host.exp (subf t (broadcastInDim S14x16384 ![0, 1] bcast_S14x1_S14x16384_0_1 (broadcastInDim S14x1 ![0] bcast_S14_S14x1_0 mx)))
  let z : FVec F S14 .f32 := Host.reduceAdd e (constant S_ .f32 0x00000000#32) reducesTo_S14x16384_S14_d1 h_S_
  Host.divf e (broadcastInDim S14x16384 ![0, 1] bcast_S14x1_S14x16384_0_1 (broadcastInDim S14x1 ![0] bcast_S14_S14x1_0 z))

/-- The reference's table of weights is the softmax over the batch of its score table. -/
theorem weights_eq (x0 : FVec F S16384x14x1024 .f32) (x1 : FVec F S1024x1024 .f32) (x2 : FVec F S1024 .f32)
    (x3 : FVec F S1024x1 .f32) (x4 : FVec F S1 .f32) :
    val_main_v21 (F := F) x0 x1 x2 x3 x4 = softmaxT (val_main_v9 (F := F) x0 x1 x2 x3 x4) := by
  unfold val_main_v21 val_main_v20 val_main_v19 val_main_v18 val_main_v17 val_main_v16 val_main_v15 val_main_v14
    val_main_v13 val_main_v12 val_main_v11 val_main_v10 val_main_cst val_main_cst_0 val_main_cst_1
  generalize val_main_v9 (F := F) x0 x1 x2 x3 x4 = L
  rfl

/-- The reference's score table is `logit` of the arguments: the two contractions are the two sums, the broadcast
    biases are the bias entries, and the reshape drops the unit axis. -/
theorem scores_eq (q : FVec Ideal S16384x14x1024 .f32) (W1 : FVec Ideal S1024x1024 .f32) (b1 : FVec Ideal S1024 .f32)
    (W2 : FVec Ideal S1024x1 .f32) (b2 : FVec Ideal S1 .f32) :
    val_main_v9 (F := Ideal) q W1 b1 W2 b2 = logit q W1 b1 W2 b2 := by
  funext i
  obtain ⟨b, s, rfl⟩ : ∃ (b : Fin 16384) (s : Fin 14), i = ix2 b s := ⟨i 0, i 1, eq_ix2 i⟩
  have hj : idx_main_v9 (ix2 b s) = ix3 b s (0 : Fin 1) := by
    funext a; apply Fin.ext
    match a with
    | ⟨0, _⟩ => show (b.val * 14 + s.val) / 14 = b.val; have := s.isLt; omega
    | ⟨1, _⟩ => show (b.val * 14 + s.val) / 1 % 14 = s.val; have := s.isLt; omega
    | ⟨2, _⟩ => rfl
  rw [val_main_v9_apply, hj, val_main_v8_apply, val_main_v5_apply, val_main_v7_apply, val_main_v6_apply]
  show (∑ k : Fin 1024, val_main_v4 (F := Ideal) q W1 b1 (lidx_main_v5 (ix3 b s 0) k) * W2 (ridx_main_v5 (ix3 b s 0) k))
      + b2 (idx_main_v6 (idx_main_v7 (ix3 b s 0)))
    = (∑ d : Fin 1024, Ideal.tanh ((∑ h : Fin 1024, q (ix3 b s h) * W1 (ix2 h d)) + b1 (ix1 d)) * W2 (ix2 d 0)) + b2 (ix1 0)
  have hb2 : idx_main_v6 (idx_main_v7 (ix3 b s (0 : Fin 1))) = ix1 (0 : Fin 1) := by
    funext a; match a with | ⟨0, _⟩ => rfl
  rw [hb2]
  refine congrArg (· + b2 (ix1 0)) (Finset.sum_congr rfl fun d _ => ?_)
  have hl : lidx_main_v5 (ix3 b s (0 : Fin 1)) d = ix3 b s d := by
    funext a; match a with | ⟨0, _⟩ => rfl | ⟨1, _⟩ => rfl | ⟨2, _⟩ => rfl
  have hr : ridx_main_v5 (ix3 b s (0 : Fin 1)) d = ix2 d (0 : Fin 1) := by
    funext a; match a with | ⟨0, _⟩ => rfl | ⟨1, _⟩ => rfl
  rw [hl, hr, val_main_v4_apply, val_main_v3_apply, val_main_v0_apply, val_main_v2_apply, val_main_v1_apply]
  show Ideal.tanh ((∑ k : Fin 1024, q (lidx_main_v0 (ix3 b s d) k) * W1 (ridx_main_v0 (ix3 b s d) k))
      + b1 (idx_main_v1 (idx_main_v2 (ix3 b s d)))) * W2 (ix2 d 0) = _
  have hb1 : idx_main_v1 (idx_main_v2 (ix3 b s d)) = ix1 d := by
    funext a; match a with | ⟨0, _⟩ => rfl
  rw [hb1]
  refine congrArg (fun z => Ideal.tanh (z + b1 (ix1 d)) * W2 (ix2 d 0)) (Finset.sum_congr rfl fun h _ => ?_)
  have hl0 : lidx_main_v0 (ix3 b s d) h = ix3 b s h := by
    funext a; match a with | ⟨0, _⟩ => rfl | ⟨1, _⟩ => rfl | ⟨2, _⟩ => rfl
  have hr0 : ridx_main_v0 (ix3 b s d) h = ix2 h d := by
    funext a; match a with | ⟨0, _⟩ => rfl | ⟨1, _⟩ => rfl
  rw [hl0, hr0]

/-- The reference's result is `pool` of its weights — the [14, 16384] table re-read row-major — and the questions:
    the batched contraction over the 14 tokens is the sum, and the two reshapes drop and add a unit axis. -/
theorem result_eq (q : FVec Ideal S16384x14x1024 .f32) (W1 : FVec Ideal S1024x1024 .f32) (b1 : FVec Ideal S1024 .f32)
    (W2 : FVec Ideal S1024x1 .f32) (b2 : FVec Ideal S1 .f32) :
    val_main_v24 (F := Ideal) q W1 b1 W2 b2 = pool (reread (val_main_v21 (F := Ideal) q W1 b1 W2 b2)) q := by
  funext i
  obtain ⟨b, h, rfl⟩ : ∃ (b : Fin 16384) (h : Fin 1024), i = ix2 b h := ⟨i 0, i 1, eq_ix2 i⟩
  have hj : idx_main_v24 (ix2 b h) = ix3 b (0 : Fin 1) h := by
    funext a; apply Fin.ext
    match a with
    | ⟨0, _⟩ => show (b.val * 1024 + h.val) / 1024 = b.val; have := h.isLt; omega
    | ⟨1, _⟩ => rfl
    | ⟨2, _⟩ => show (b.val * 1024 + h.val) % 1024 = h.val; have := h.isLt; omega
  rw [val_main_v24_apply, hj, val_main_v23_apply]
  show _ = ∑ s : Fin 14, reread (val_main_v21 (F := Ideal) q W1 b1 W2 b2) (ix2 b s) * q (ix3 b s h)
  refine Finset.sum_congr rfl fun s _ => ?_
  have hl : lidx_main_v23 (ix3 b (0 : Fin 1) h) s = ix3 b (0 : Fin 1) s := by
    funext a; match a with | ⟨0, _⟩ => rfl | ⟨1, _⟩ => rfl | ⟨2, _⟩ => rfl
  have hr : ridx_main_v23 (ix3 b (0 : Fin 1) h) s = ix3 b s h := by
    funext a; match a with | ⟨0, _⟩ => rfl | ⟨1, _⟩ => rfl | ⟨2, _⟩ => rfl
  rw [hl, hr, val_main_v22_apply]
  refine congrArg (· * q (ix3 b s h)) (congrArg (val_main_v21 (F := Ideal) q W1 b1 W2 b2) ?_)
  funext a; apply Fin.ext
  match a with
  | ⟨0, _⟩ => show ((b.val * 1 + 0) * 14 + s.val) / 16384 = (b.val * 14 + s.val) / 16384; rw [Nat.mul_one, Nat.add_zero]
  | ⟨1, _⟩ => show ((b.val * 1 + 0) * 14 + s.val) % 16384 = (b.val * 14 + s.val) % 16384; rw [Nat.mul_one, Nat.add_zero]

end Cert.ReferenceIdeal.RefValue

end
-- ==== Proof.lean ====
/-
  The proof of `Cert.Claim`.

  Both programs compute, for a batch of 16384 questions of 14 tokens with 1024 features: a score per token (a dense
  layer with tanh, then a dot product with one weight column, plus a bias); a softmax of the scores of each token
  position over the whole batch; the resulting [14, 16384] table re-read row-major as [16384, 14] weights; and per
  question the weighted sum of its tokens' features.  The kernel program computes the scores in one pipelined kernel
  over the questions flattened to [229376, 1024] (128 blocks of 1792 rows: a matrix product into a zero accumulator, a
  lane sum), the softmax on the host, and the weighted sums in a second pipelined kernel (64 blocks of 256 questions,
  fourteen accumulation steps from zero).  The reference computes everything on the host with three contractions.

  On the extended reals the two are one function of the arguments: a matrix product into zero and a lane sum are the
  contractions' finite sums, converting to a narrower float format is the identity, zero plus x is x, and the fourteen
  steps add up in the order a sum over fourteen indices unfolds; the softmax is the same host computation applied to
  the same score table.  Only that addition of extended reals is a commutative monoid is used: the inputs' finiteness
  is not.  The modules: Spec (the functions `logit`, `reread`, `pool`), Layout (flattening and row-major re-reading),
  Logits and Pool (what each kernel's output array holds after its pipeline), HostSide (the kernel program's host
  operations), KernelRun (its run with the result named), RefSide (the reference against the specification).
-/
import proofs.«142227_j77446850282041_2_alg».proof.Defs
import proofs.«142227_j77446850282041_2_alg».proof.Proof.Gen.Kernel
import proofs.«142227_j77446850282041_2_alg».proof.Proof.Gen.Kernel.Frame
import proofs.«142227_j77446850282041_2_alg».proof.Proof.Gen.KernelIdeal
import proofs.«142227_j77446850282041_2_alg».proof.Proof.Gen.KernelIdeal.Frame
import proofs.«142227_j77446850282041_2_alg».proof.Proof.Gen.ReferenceIdeal
import proofs.«142227_j77446850282041_2_alg».proof.Proof.Gen.ReferenceIdeal.Run
import proofs.«142227_j77446850282041_2_alg».proof.Proof.Gen.ReferenceIdeal.Read
import proofs.«142227_j77446850282041_2_alg».proof.Proof.Gen.Pre_finite_inputs
import proofs.«142227_j77446850282041_2_alg».proof.Proof.Spec
import proofs.«142227_j77446850282041_2_alg».proof.Proof.Layout
import proofs.«142227_j77446850282041_2_alg».proof.Proof.Logits
import proofs.«142227_j77446850282041_2_alg».proof.Proof.Pool
import proofs.«142227_j77446850282041_2_alg».proof.Proof.KernelRun
import proofs.«142227_j77446850282041_2_alg».proof.Proof.HostSide
import proofs.«142227_j77446850282041_2_alg».proof.Proof.RefSide

set_option maxRecDepth 16384

noncomputable section

namespace Cert.Proof

open Idealize.ShloMosaic Idealize.ShloMosaic.TcCoe Idealize.SL.Sem Cert.AttnPool

section Kernel
open Cert.KernelIdeal Cert.KernelIdeal.Gen Cert.KernelIdeal.HostSide Cert.KernelIdeal.RegionValues

/-- What the kernel program's result buffer holds at the end, from the launch memory: the pooling kernel's output array
    is `pool` of the weights and questions it finds; the weights are the host's softmax of the score kernel's output
    array, re-read row-major; that array is the score of the flattened arguments, which is the score of the arguments. -/
theorem kernel_value (m : (ℓ : Loc nD τ sig) → Buf (Elt Ideal) ℓ) (ρ : Dev nD → PrngReg) (c : Dev nD) :
    W4 m ρ c (Proc.devRef .tc main_v17)
      = pool (reread (softmaxT (F := Ideal) (logit (m ((c : Thread nD τ).loc main_arg0)) (m ((c : Thread nD τ).loc main_arg1))
          (m ((c : Thread nD τ).loc main_arg2)) (m ((c : Thread nD τ).loc main_arg3)) (m ((c : Thread nD τ).loc main_arg4)))))
          (m ((c : Thread nD τ).loc main_arg0)) := by
  have e1 : W4 m ρ c (Proc.devRef .tc main_v17) = pool (V3 m ρ c main_v16) (V3 m ρ c main_arg0) :=
    (W4_arr m ρ c 2).trans (pool_final (V3 m ρ) c)
  have e2 : W2 m ρ c (Proc.devRef .tc main_v3)
      = logitFlat (V1 m ρ c main_v2) (V1 m ρ c main_v0) (V1 m ρ c main_arg2) (V1 m ρ c main_v1) (V1 m ρ c main_arg4) :=
    (W2_arr m ρ c 5).trans (logits_final (V1 m ρ) c)
  rw [e1, entry_weights, entry_pool_questions, e2, entry_questions, entry_w1, entry_w2, entry_b1, entry_b2,
    shapeCast_eq_reread, logitFlat_of_flatten]

end Kernel

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs apply the same host computation to their score tables: one function. -/
theorem softmax_same (L : FVec Ideal Cert.KernelIdeal.S16384x14 .f32) :
    Cert.KernelIdeal.HostSide.softmaxT (F := Ideal) L = Cert.ReferenceIdeal.RefValue.softmaxT (F := Ideal) L := rfl

/-- From memories agreeing on the arguments both programs end with `pool` of the re-read softmax of `logit` of the
    arguments, and of the questions. -/
theorem algebraic : Cert.algebraic_KernelIdeal_ReferenceIdeal := by
  intro m ρ m' ρ' _ hagree
  refine ⟨fun c => pool (reread (Cert.KernelIdeal.HostSide.softmaxT (F := Ideal)
      (logit (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)))))
      (m ((c : Thread Cert.KernelIdeal.nD Cert.KernelIdeal.τ).loc Cert.KernelIdeal.main_arg0)), ?_, ?_⟩
  · exact (θ_run Cert.KernelIdeal.defs _ _).mono (fun r h c => ⟨(h c).1.trans (kernel_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2.1, (hagree c).2.2.2.2,
      Cert.ReferenceIdeal.RefValue.result_eq, Cert.ReferenceIdeal.RefValue.weights_eq, Cert.ReferenceIdeal.RefValue.scores_eq,
      ← softmax_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
